-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x4096x8 : Shape := ⟨4, ![4, 200, 4096, 8]⟩
abbrev S8x8 : Shape := ⟨2, ![8, 8]⟩
abbrev S_ : Shape := ⟨0, ![]⟩

class Facts : Prop where
  bcast_S_S4x200x4096x8 : S_.BroadcastsInDim S4x200x4096x8 (![] : Fin 0 → Fin S4x200x4096x8.rank)
  reducesTo_S4x200x4096x8_S_d0_1_2_3 : S4x200x4096x8.ReducesTo [0, 1, 2, 3] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S4x200x4096x8 .f32) (main_arg1 : FVec F S8x8 .f32) (main_arg2 : FVec F S8x8 .f32) : IVec S_ 1 :=
  let main_v0 : FVec F S4x200x4096x8 .f32 := Host.absf main_arg0
  let main_cst : FVec F S_ .f32 := constant S_ .f32 0x7F800000#32
  let main_v1 : FVec F S4x200x4096x8 .f32 := broadcastInDim S4x200x4096x8 ![] bcast_S_S4x200x4096x8 main_cst
  let main_v2 : IVec S4x200x4096x8 1 := cmpf .olt main_v0 main_v1
  let main_c : IVec S_ 1 := constantI S_ 1 1#1
  let main_v3 : IVec S_ 1 := (fun x v => Host.reduce IntOp.andi x v reducesTo_S4x200x4096x8_S_d0_1_2_3 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  main_v13
-- ==== Kernel.lean ====
abbrev S4x200x4096x8 : Shape := ⟨4, ![4, 200, 4096, 8]⟩
abbrev S8x8 : Shape := ⟨2, ![8, 8]⟩
abbrev S1x8x1x8 : Shape := ⟨4, ![1, 8, 1, 8]⟩
abbrev S1x8x4096x8 : Shape := ⟨4, ![1, 8, 4096, 8]⟩
abbrev S8x32768 : Shape := ⟨2, ![8, 32768]⟩
abbrev S800x32768 : Shape := ⟨2, ![800, 32768]⟩
abbrev S80x32768 : Shape := ⟨2, ![80, 32768]⟩
abbrev S80x32704 : Shape := ⟨2, ![80, 32704]⟩
abbrev S80x64 : Shape := ⟨2, ![80, 64]⟩
abbrev S1x32768 : Shape := ⟨2, ![1, 32768]⟩
abbrev S32768 : Shape := ⟨1, ![32768]⟩
abbrev S80x32712 : Shape := ⟨2, ![80, 32712]⟩
abbrev S80x56 : Shape := ⟨2, ![80, 56]⟩
abbrev S80x32720 : Shape := ⟨2, ![80, 32720]⟩
abbrev S80x48 : Shape := ⟨2, ![80, 48]⟩
abbrev S80x32728 : Shape := ⟨2, ![80, 32728]⟩
abbrev S80x40 : Shape := ⟨2, ![80, 40]⟩
abbrev S80x32736 : Shape := ⟨2, ![80, 32736]⟩
abbrev S80x32 : Shape := ⟨2, ![80, 32]⟩
abbrev S80x32744 : Shape := ⟨2, ![80, 32744]⟩
abbrev S80x24 : Shape := ⟨2, ![80, 24]⟩
abbrev S80x32752 : Shape := ⟨2, ![80, 32752]⟩
abbrev S80x16 : Shape := ⟨2, ![80, 16]⟩
abbrev S80x32760 : Shape := ⟨2, ![80, 32760]⟩
abbrev S80x8 : Shape := ⟨2, ![80, 8]⟩

abbrev nBuf : Space → Nat
  | .hbm => 10
  | .vmem => 5
  | .smem => 0
  | _ => 0

abbrev bufTy : (tb : Table) → Fin (tcTables nBuf tb) → BufTy
  | .hbm, ⟨0, _⟩ => ⟨S4x200x4096x8, .f32⟩
  | .hbm, ⟨1, _⟩ => ⟨S8x8, .f32⟩
  | .hbm, ⟨2, _⟩ => ⟨S8x8, .f32⟩
  | .hbm, ⟨3, _⟩ => ⟨S8x8, .f32⟩
  | .hbm, ⟨4, _⟩ => ⟨S1x8x1x8, .f32⟩
  | .hbm, ⟨5, _⟩ => ⟨S1x8x4096x8, .f32⟩
  | .hbm, ⟨6, _⟩ => ⟨S8x32768, .f32⟩
  | .hbm, ⟨7, _⟩ => ⟨S800x32768, .f32⟩
  | .hbm, ⟨8, _⟩ => ⟨S800x32768, .f32⟩
  | .hbm, ⟨9, _⟩ => ⟨S4x200x4096x8, .f32⟩
  | .local _ .vmem, ⟨0, _⟩ => ⟨S80x32768, .f32⟩
  | .local _ .vmem, ⟨1, _⟩ => ⟨S80x32768, .f32⟩
  | .local _ .vmem, ⟨2, _⟩ => ⟨S8x32768, .f32⟩
  | .local _ .vmem, ⟨3, _⟩ => ⟨S80x32768, .f32⟩
  | .local _ .vmem, ⟨4, _⟩ => ⟨S80x32768, .f32⟩
  | _, _ => ⟨S4x200x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x8_S1x8x1x8 : S8x8.ShapeCasts S1x8x1x8
  bcast_S1x8x1x8_S1x8x4096x8_0_1_2_3 : S1x8x1x8.BroadcastsInDim S1x8x4096x8 (![0, 1, 2, 3] : Fin 4 → Fin S1x8x4096x8.rank)
  shapeCasts_S1x8x4096x8_S8x32768 : S1x8x4096x8.ShapeCasts S8x32768
  shapeCasts_S4x200x4096x8_S800x32768 : S4x200x4096x8.ShapeCasts S800x32768
  inb_S80x32768_S80x32768_0_0 : ∀ a, (![0, 0] : Fin 2 → Nat) a + S80x32768.size a ≤ S80x32768.size a
  h_S80x32768 : 0 < S80x32768.numel
  shapeCasts_S80x32768_S80x32768 : S80x32768.ShapeCasts S80x32768
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  slices_S80x32768_o0_0_S80x32704 : S80x32768.Slices ![0, 0] S80x32704
  concatenates_S80x64_S80x32704_S80x32768_d1 : Shape.Concatenates [S80x64, S80x32704] S80x32768 1
  slices_S8x32768_o0_0_S1x32768 : S8x32768.Slices ![0, 0] S1x32768
  shapeCasts_S1x32768_S32768 : S1x32768.ShapeCasts S32768
  shapeCasts_S32768_S1x32768 : S32768.ShapeCasts S1x32768
  broadcasts_S1x32768_S80x32768 : S1x32768.Broadcasts S80x32768
  slices_S80x32768_o0_0_S80x32712 : S80x32768.Slices ![0, 0] S80x32712
  concatenates_S80x56_S80x32712_S80x32768_d1 : Shape.Concatenates [S80x56, S80x32712] S80x32768 1
  slices_S8x32768_o1_0_S1x32768 : S8x32768.Slices ![1, 0] S1x32768
  slices_S80x32768_o0_0_S80x32720 : S80x32768.Slices ![0, 0] S80x32720
  concatenates_S80x48_S80x32720_S80x32768_d1 : Shape.Concatenates [S80x48, S80x32720] S80x32768 1
  slices_S8x32768_o2_0_S1x32768 : S8x32768.Slices ![2, 0] S1x32768
  slices_S80x32768_o0_0_S80x32728 : S80x32768.Slices ![0, 0] S80x32728
  concatenates_S80x40_S80x32728_S80x32768_d1 : Shape.Concatenates [S80x40, S80x32728] S80x32768 1
  slices_S8x32768_o3_0_S1x32768 : S8x32768.Slices ![3, 0] S1x32768
  slices_S80x32768_o0_0_S80x32736 : S80x32768.Slices ![0, 0] S80x32736
  concatenates_S80x32_S80x32736_S80x32768_d1 : Shape.Concatenates [S80x32, S80x32736] S80x32768 1
  slices_S8x32768_o4_0_S1x32768 : S8x32768.Slices ![4, 0] S1x32768
  slices_S80x32768_o0_0_S80x32744 : S80x32768.Slices ![0, 0] S80x32744
  concatenates_S80x24_S80x32744_S80x32768_d1 : Shape.Concatenates [S80x24, S80x32744] S80x32768 1
  slices_S8x32768_o5_0_S1x32768 : S8x32768.Slices ![5, 0] S1x32768
  slices_S80x32768_o0_0_S80x32752 : S80x32768.Slices ![0, 0] S80x32752
  concatenates_S80x16_S80x32752_S80x32768_d1 : Shape.Concatenates [S80x16, S80x32752] S80x32768 1
  slices_S8x32768_o6_0_S1x32768 : S8x32768.Slices ![6, 0] S1x32768
  slices_S80x32768_o0_0_S80x32760 : S80x32768.Slices ![0, 0] S80x32760
  concatenates_S80x8_S80x32760_S80x32768_d1 : Shape.Concatenates [S80x8, S80x32760] S80x32768 1
  slices_S8x32768_o7_0_S1x32768 : S8x32768.Slices ![7, 0] S1x32768
  iota_S80x32768_d1_w32 : S80x32768.Iotas .tc 32 [1]
  shapeCasts_S800x32768_S4x200x4096x8 : S800x32768.ShapeCasts S4x200x4096x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x32768.size a ≤ S800x32768.size a
  hwx0_0 : ∀ i : grid0.Coords, EltTy.bits .f32 = 32 ∨ (Rect.block (s := S800x32768) S80x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x32768.size a
  hwx0_1 : ∀ i : grid0.Coords, EltTy.bits .f32 = 32 ∨ (Rect.block (s := S8x32768) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x32768.size a ≤ S800x32768.size a
  hwx0_2 : ∀ i : grid0.Coords, EltTy.bits .f32 = 32 ∨ (Rect.block (s := S800x32768) S80x32768.size (cc0_transform_2 i) (hinb0_2 i)).WholeWords (EltTy.packing .f32)

variable [Facts₀]

abbrev win0_0 : Pipeline.Window sig grid0 :=
  Pipeline.Window.ofSpec (Memref.whole main_v4) S80x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S80x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x200x4096x8 : Shape := ⟨4, ![4, 200, 4096, 8]⟩
abbrev S8x8 : Shape := ⟨2, ![8, 8]⟩
abbrev S_ : Shape := ⟨0, ![]⟩
abbrev S4x200x4088x8 : Shape := ⟨4, ![4, 200, 4088, 8]⟩
abbrev S1x8 : Shape := ⟨2, ![1, 8]⟩
abbrev S8 : Shape := ⟨1, ![8]⟩
abbrev S1x1x1x8 : Shape := ⟨4, ![1, 1, 1, 8]⟩

abbrev nBuf : Space → Nat
  | .hbm => 126
  | .vmem => 0
  | .smem => 0
  | _ => 0

abbrev bufTy : (tb : Table) → Fin (tcTables nBuf tb) → BufTy
  | .hbm, ⟨0, _⟩ => ⟨S4x200x4096x8, .f32⟩
  | .hbm, ⟨1, _⟩ => ⟨S8x8, .f32⟩
  | .hbm, ⟨2, _⟩ => ⟨S8x8, .f32⟩
  | .hbm, ⟨3, _⟩ => ⟨S_, .f32⟩
  | .hbm, ⟨4, _⟩ => ⟨S4x200x4088x8, .f32⟩
  | .hbm, ⟨5, _⟩ => ⟨S1x8, .f32⟩
  | .hbm, ⟨6, _⟩ => ⟨S8, .f32⟩
  | .hbm, ⟨7, _⟩ => ⟨S1x1x1x8, .f32⟩
  | .hbm, ⟨8, _⟩ => ⟨S4x200x4088x8, .f32⟩
  | .hbm, ⟨9, _⟩ => ⟨S4x200x4088x8, .f32⟩
  | .hbm, ⟨10, _⟩ => ⟨S4x200x4088x8, .f32⟩
  | .hbm, ⟨11, _⟩ => ⟨S4x200x4088x8, .f32⟩
  | .hbm, ⟨12, _⟩ => ⟨S1x8, .f32⟩
  | .hbm, ⟨13, _⟩ => ⟨S8, .f32⟩
  | .hbm, ⟨14, _⟩ => ⟨S1x1x1x8, .f32⟩
  | .hbm, ⟨15, _⟩ => ⟨S4x200x4088x8, .f32⟩
  | .hbm, ⟨16, _⟩ => ⟨S4x200x4088x8, .f32⟩
  | .hbm, ⟨17, _⟩ => ⟨S4x200x4088x8, .f32⟩
  | .hbm, ⟨18, _⟩ => ⟨S4x200x4088x8, .f32⟩
  | .hbm, ⟨19, _⟩ => ⟨S1x8, .f32⟩
  | .hbm, ⟨20, _⟩ => ⟨S8, .f32⟩
  | .hbm, ⟨21, _⟩ => ⟨S1x1x1x8, .f32⟩
  | .hbm, ⟨22, _⟩ => ⟨S4x200x4088x8, .f32⟩
  | .hbm, ⟨23, _⟩ => ⟨S4x200x4088x8, .f32⟩
  | .hbm, ⟨24, _⟩ => ⟨S4x200x4088x8, .f32⟩
  | .hbm, ⟨25, _⟩ => ⟨S4x200x4088x8, .f32⟩
  | .hbm, ⟨26, _⟩ => ⟨S1x8, .f32⟩
  | .hbm, ⟨27, _⟩ => ⟨S8, .f32⟩
  | .hbm, ⟨28, _⟩ => ⟨S1x1x1x8, .f32⟩
  | .hbm, ⟨29, _⟩ => ⟨S4x200x4088x8, .f32⟩
  | .hbm, ⟨30, _⟩ => ⟨S4x200x4088x8, .f32⟩
  | .hbm, ⟨31, _⟩ => ⟨S4x200x4088x8, .f32⟩
  | .hbm, ⟨32, _⟩ => ⟨S4x200x4088x8, .f32⟩
  | .hbm, ⟨33, _⟩ => ⟨S1x8, .f32⟩
  | .hbm, ⟨34, _⟩ => ⟨S8, .f32⟩
  | .hbm, ⟨35, _⟩ => ⟨S1x1x1x8, .f32⟩
  | .hbm, ⟨36, _⟩ => ⟨S4x200x4088x8, .f32⟩
  | .hbm, ⟨37, _⟩ => ⟨S4x200x4088x8, .f32⟩
  | .hbm, ⟨38, _⟩ => ⟨S4x200x4088x8, .f32⟩
  | .hbm, ⟨39, _⟩ => ⟨S4x200x4088x8, .f32⟩
  | .hbm, ⟨40, _⟩ => ⟨S1x8, .f32⟩
  | .hbm, ⟨41, _⟩ => ⟨S8, .f32⟩
  | .hbm, ⟨42, _⟩ => ⟨S1x1x1x8, .f32⟩
  | .hbm, ⟨43, _⟩ => ⟨S4x200x4088x8, .f32⟩
  | .hbm, ⟨44, _⟩ => ⟨S4x200x4088x8, .f32⟩
  | .hbm, ⟨45, _⟩ => ⟨S4x200x4088x8, .f32⟩
  | .hbm, ⟨46, _⟩ => ⟨S4x200x4088x8, .f32⟩
  | .hbm, ⟨47, _⟩ => ⟨S1x8, .f32⟩
  | .hbm, ⟨48, _⟩ => ⟨S8, .f32⟩
  | .hbm, ⟨49, _⟩ => ⟨S1x1x1x8, .f32⟩
  | .hbm, ⟨50, _⟩ => ⟨S4x200x4088x8, .f32⟩
  | .hbm, ⟨51, _⟩ => ⟨S4x200x4088x8, .f32⟩
  | .hbm, ⟨52, _⟩ => ⟨S4x200x4088x8, .f32⟩
  | .hbm, ⟨53, _⟩ => ⟨S4x200x4088x8, .f32⟩
  | .hbm, ⟨54, _⟩ => ⟨S1x8, .f32⟩
  | .hbm, ⟨55, _⟩ => ⟨S8, .f32⟩
  | .hbm, ⟨56, _⟩ => ⟨S1x1x1x8, .f32⟩
  | .hbm, ⟨57, _⟩ => ⟨S4x200x4088x8, .f32⟩
  | .hbm, ⟨58, _⟩ => ⟨S4x200x4088x8, .f32⟩
  | .hbm, ⟨59, _⟩ => ⟨S4x200x4088x8, .f32⟩
  | .hbm, ⟨60, _⟩ => ⟨S4x200x4088x8, .f32⟩
  | .hbm, ⟨61, _⟩ => ⟨S_, .i32⟩
  | .hbm, ⟨62, _⟩ => ⟨S_, .f32⟩
  | .hbm, ⟨63, _⟩ => ⟨S4x200x4096x8, .f32⟩
  | .hbm, ⟨64, _⟩ => ⟨S_, .f32⟩
  | .hbm, ⟨65, _⟩ => ⟨S4x200x4088x8, .f32⟩
  | .hbm, ⟨66, _⟩ => ⟨S1x8, .f32⟩
  | .hbm, ⟨67, _⟩ => ⟨S8, .f32⟩
  | .hbm, ⟨68, _⟩ => ⟨S1x1x1x8, .f32⟩
  | .hbm, ⟨69, _⟩ => ⟨S4x200x4088x8, .f32⟩
  | .hbm, ⟨70, _⟩ => ⟨S4x200x4088x8, .f32⟩
  | .hbm, ⟨71, _⟩ => ⟨S4x200x4088x8, .f32⟩
  | .hbm, ⟨72, _⟩ => ⟨S4x200x4088x8, .f32⟩
  | .hbm, ⟨73, _⟩ => ⟨S1x8, .f32⟩
  | .hbm, ⟨74, _⟩ => ⟨S8, .f32⟩
  | .hbm, ⟨75, _⟩ => ⟨S1x1x1x8, .f32⟩
  | .hbm, ⟨76, _⟩ => ⟨S4x200x4088x8, .f32⟩
  | .hbm, ⟨77, _⟩ => ⟨S4x200x4088x8, .f32⟩
  | .hbm, ⟨78, _⟩ => ⟨S4x200x4088x8, .f32⟩
  | .hbm, ⟨79, _⟩ => ⟨S4x200x4088x8, .f32⟩
  | .hbm, ⟨80, _⟩ => ⟨S1x8, .f32⟩
  | .hbm, ⟨81, _⟩ => ⟨S8, .f32⟩
  | .hbm, ⟨82, _⟩ => ⟨S1x1x1x8, .f32⟩
  | .hbm, ⟨83, _⟩ => ⟨S4x200x4088x8, .f32⟩
  | .hbm, ⟨84, _⟩ => ⟨S4x200x4088x8, .f32⟩
  | .hbm, ⟨85, _⟩ => ⟨S4x200x4088x8, .f32⟩
  | .hbm, ⟨86, _⟩ => ⟨S4x200x4088x8, .f32⟩
  | .hbm, ⟨87, _⟩ => ⟨S1x8, .f32⟩
  | .hbm, ⟨88, _⟩ => ⟨S8, .f32⟩
  | .hbm, ⟨89, _⟩ => ⟨S1x1x1x8, .f32⟩
  | .hbm, ⟨90, _⟩ => ⟨S4x200x4088x8, .f32⟩
  | .hbm, ⟨91, _⟩ => ⟨S4x200x4088x8, .f32⟩
  | .hbm, ⟨92, _⟩ => ⟨S4x200x4088x8, .f32⟩
  | .hbm, ⟨93, _⟩ => ⟨S4x200x4088x8, .f32⟩
  | .hbm, ⟨94, _⟩ => ⟨S1x8, .f32⟩
  | .hbm, ⟨95, _⟩ => ⟨S8, .f32⟩
  | .hbm, ⟨96, _⟩ => ⟨S1x1x1x8, .f32⟩
  | .hbm, ⟨97, _⟩ => ⟨S4x200x4088x8, .f32⟩
  | .hbm, ⟨98, _⟩ => ⟨S4x200x4088x8, .f32⟩
  | .hbm, ⟨99, _⟩ => ⟨S4x200x4088x8, .f32⟩
  | .hbm, ⟨100, _⟩ => ⟨S4x200x4088x8, .f32⟩
  | .hbm, ⟨101, _⟩ => ⟨S1x8, .f32⟩
  | .hbm, ⟨102, _⟩ => ⟨S8, .f32⟩
  | .hbm, ⟨103, _⟩ => ⟨S1x1x1x8, .f32⟩
  | .hbm, ⟨104, _⟩ => ⟨S4x200x4088x8, .f32⟩
  | .hbm, ⟨105, _⟩ => ⟨S4x200x4088x8, .f32⟩
  | .hbm, ⟨106, _⟩ => ⟨S4x200x4088x8, .f32⟩
  | .hbm, ⟨107, _⟩ => ⟨S4x200x4088x8, .f32⟩
  | .hbm, ⟨108, _⟩ => ⟨S1x8, .f32⟩
  | .hbm, ⟨109, _⟩ => ⟨S8, .f32⟩
  | .hbm, ⟨110, _⟩ => ⟨S1x1x1x8, .f32⟩
  | .hbm, ⟨111, _⟩ => ⟨S4x200x4088x8, .f32⟩
  | .hbm, ⟨112, _⟩ => ⟨S4x200x4088x8, .f32⟩
  | .hbm, ⟨113, _⟩ => ⟨S4x200x4088x8, .f32⟩
  | .hbm, ⟨114, _⟩ => ⟨S4x200x4088x8, .f32⟩
  | .hbm, ⟨115, _⟩ => ⟨S1x8, .f32⟩
  | .hbm, ⟨116, _⟩ => ⟨S8, .f32⟩
  | .hbm, ⟨117, _⟩ => ⟨S1x1x1x8, .f32⟩
  | .hbm, ⟨118, _⟩ => ⟨S4x200x4088x8, .f32⟩
  | .hbm, ⟨119, _⟩ => ⟨S4x200x4088x8, .f32⟩
  | .hbm, ⟨120, _⟩ => ⟨S4x200x4088x8, .f32⟩
  | .hbm, ⟨121, _⟩ => ⟨S4x200x4088x8, .f32⟩
  | .hbm, ⟨122, _⟩ => ⟨S_, .i32⟩
  | .hbm, ⟨123, _⟩ => ⟨S_, .f32⟩
  | .hbm, ⟨124, _⟩ => ⟨S4x200x4096x8, .f32⟩
  | .hbm, ⟨125, _⟩ => ⟨S4x200x4096x8, .f32⟩
  | _, _ => ⟨S4x200x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_c : Ref sig .tc := ⟨.hbm, 61, rfl⟩
abbrev main_call0_v0 : Ref sig .tc := ⟨.hbm, 62, rfl⟩
abbrev main_v57 : Ref sig .tc := ⟨.hbm, 63, rfl⟩
abbrev main_cst_0 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_c_1 : Ref sig .tc := ⟨.hbm, 122, rfl⟩
abbrev main_call1_v0 : Ref sig .tc := ⟨.hbm, 123, rfl⟩
abbrev main_v115 : Ref sig .tc := ⟨.hbm, 124, rfl⟩
abbrev main_v116 : Ref sig .tc := ⟨.hbm, 125, rfl⟩

abbrev nD : Nat := 1
abbrev τ : Topo := Topo.v7x

variable {F : FTy → Type} [FloatOps F]

class Facts₀ : Prop where
  bcast_S_S4x200x4088x8 : S_.BroadcastsInDim S4x200x4088x8 (![] : Fin 0 → Fin S4x200x4088x8.rank)
  slices_S8x8_S1x8_0_0 : S8x8.Slices ![0, 0] S1x8
  shapeCasts_S1x8_S8 : S1x8.ShapeCasts S8
  bcast_S8_S1x1x1x8_3 : S8.BroadcastsInDim S1x1x1x8 (![3] : Fin 1 → Fin S1x1x1x8.rank)
  slices_S4x200x4096x8_S4x200x4088x8_0_0_0_0 : S4x200x4096x8.Slices ![0, 0, 0, 0] S4x200x4088x8
  bcast_S1x1x1x8_S4x200x4088x8_0_1_2_3 : S1x1x1x8.BroadcastsInDim S4x200x4088x8 (![0, 1, 2, 3] : Fin 4 → Fin S4x200x4088x8.rank)
  slices_S8x8_S1x8_1_0 : S8x8.Slices ![1, 0] S1x8
  slices_S4x200x4096x8_S4x200x4088x8_0_0_1_0 : S4x200x4096x8.Slices ![0, 0, 1, 0] S4x200x4088x8
  slices_S8x8_S1x8_2_0 : S8x8.Slices ![2, 0] S1x8
  slices_S4x200x4096x8_S4x200x4088x8_0_0_2_0 : S4x200x4096x8.Slices ![0, 0, 2, 0] S4x200x4088x8
  slices_S8x8_S1x8_3_0 : S8x8.Slices ![3, 0] S1x8
  slices_S4x200x4096x8_S4x200x4088x8_0_0_3_0 : S4x200x4096x8.Slices ![0, 0, 3, 0] S4x200x4088x8
  slices_S8x8_S1x8_4_0 : S8x8.Slices ![4, 0] S1x8
  slices_S4x200x4096x8_S4x200x4088x8_0_0_4_0 : S4x200x4096x8.Slices ![0, 0, 4, 0] S4x200x4088x8
  slices_S8x8_S1x8_5_0 : S8x8.Slices ![5, 0] S1x8
  slices_S4x200x4096x8_S4x200x4088x8_0_0_5_0 : S4x200x4096x8.Slices ![0, 0, 5, 0] S4x200x4088x8
  slices_S8x8_S1x8_6_0 : S8x8.Slices ![6, 0] S1x8
  slices_S4x200x4096x8_S4x200x4088x8_0_0_6_0 : S4x200x4096x8.Slices ![0, 0, 6, 0] S4x200x4088x8
  slices_S8x8_S1x8_7_0 : S8x8.Slices ![7, 0] S1x8
  slices_S4x200x4096x8_S4x200x4088x8_0_0_7_0 : S4x200x4096x8.Slices ![0, 0, 7, 0] S4x200x4088x8
  pads_S4x200x4088x8_S4x200x4096x8_000_000_800_000 : S4x200x4088x8.Pads (![0, 0, 8, 0] : Fin 4 → Nat) ![0, 0, 0, 0] ![0, 0, 0, 0] S4x200x4096x8
  h_S_ : 0 < S_.numel

variable [Facts₀]

class Facts : Prop extends Facts₀ where

variable [Facts]
-- ==== Proof.FirSpec.lean ====
/-
  The specification both programs meet: a causal eight-tap filter along the time axis, one filter per feature.

  For an input `x[b, n, i, f]` (4 × 200 series of 4096 steps of 8 features) and two 8 × 8 weight tables `ar[a, f]`, `ma[a, f]`
  (tap `a`, feature `f`) the result is
      out[b, n, i, f] = Σ_{a < 8} (ar[a, f] + ma[a, f]) · x[b, n, i − 8 + a, f]   for i ≥ 8,      0 for i < 8.
  Steps and features are flattened into ONE axis of 32768 positions, position `c = 8·i + f`: tap `a` then reads `8·(8 − a)`
  positions back, and "i ≥ 8" is "c ≥ 64". `firRow` is one series of the filter on that flat axis, with the terms added in the
  order a = 0, 1, …, 7 onto 0; `fir` is the whole array. `taps_split` is the one algebraic law used: over REAL numbers a sum of
  products with summed weights is the sum of the two sums of products (distributivity, which fails on the extended reals at
  the infinities: hence the real arguments).
-/
import Idealize.ShloMosaic.PureOps.Ideal
import Idealize.ShloMosaic.Lib.ValueIdx

noncomputable section

namespace Cert.Arima

open Idealize.ShloMosaic Idealize.ShloMosaic.ValueIdx

/-- Position `c` of the flat axis moved `k` places back (a truncated difference: it is read only where `k ≤ c`). -/
def back (c : Fin 32768) (k : Nat) : Fin 32768 := ⟨c.val - k, lt_of_le_of_lt (Nat.sub_le _ _) c.isLt⟩

theorem back_val (c : Fin 32768) (k : Nat) : (back c k).val = c.val - k := rfl

/-- The flat position of step `i`, feature `f`. -/
def flat (i : Fin 4096) (f : Fin 8) : Fin 32768 := ⟨i.val * 8 + f.val, by have := i.isLt; have := f.isLt; omega⟩
/-- The step of a flat position. -/
def step (c : Fin 32768) : Fin 4096 := ⟨c.val / 8, by have := c.isLt; omega⟩
/-- The feature of a flat position. -/
def feat (c : Fin 32768) : Fin 8 := ⟨c.val % 8, by omega⟩
/-- Series `n` of batch `b` among the 800 series. -/
def series (b : Fin 4) (n : Fin 200) : Fin 800 := ⟨b.val * 200 + n.val, by have := b.isLt; have := n.isLt; omega⟩

theorem flat_val (i : Fin 4096) (f : Fin 8) : (flat i f).val = i.val * 8 + f.val := rfl
theorem step_val (c : Fin 32768) : (step c).val = c.val / 8 := rfl
theorem feat_val (c : Fin 32768) : (feat c).val = c.val % 8 := rfl
theorem series_val (b : Fin 4) (n : Fin 200) : (series b n).val = b.val * 200 + n.val := rfl

/-- One series of the filter on the flat axis: at a position past the first eight steps, the eight products of tap `a`'s weight at
    the position with the series `8·(8 − a)` positions back, added onto 0 in the order of the taps; 0 before. -/
def firRow (x : Fin 32768 → EReal) (w : Fin 8 → Fin 32768 → EReal) (c : Fin 32768) : EReal :=
  if 64 ≤ c.val then
    0 + w 0 c * x (back c 64) + w 1 c * x (back c 56) + w 2 c * x (back c 48) + w 3 c * x (back c 40)
      + w 4 c * x (back c 32) + w 5 c * x (back c 24) + w 6 c * x (back c 16) + w 7 c * x (back c 8)
  else 0

/-- The filter on the whole array, weights `ar + ma`: series `(b, n)` of `x` laid out on the flat axis, filtered, read at `(i, f)`. -/
def fir (x : (⟨4, ![4, 200, 4096, 8]⟩ : Shape).Idx → EReal) (ar ma : (⟨2, ![8, 8]⟩ : Shape).Idx → EReal) :
    (⟨4, ![4, 200, 4096, 8]⟩ : Shape).Idx → EReal :=
  fun j => firRow (fun c => x (ix4 (j 0) (j 1) (step c) (feat c)))
    (fun a c => ar (ix2 a (feat c)) + ma (ix2 a (feat c))) (flat (j 2) (j 3))

theorem fir_ix4 (x : (⟨4, ![4, 200, 4096, 8]⟩ : Shape).Idx → EReal) (ar ma : (⟨2, ![8, 8]⟩ : Shape).Idx → EReal)
    (b : Fin 4) (n : Fin 200) (i : Fin 4096) (f : Fin 8) :
    fir x ar ma (ix4 b n i f) = firRow (fun c => x (ix4 b n (step c) (feat c)))
      (fun a c => ar (ix2 a (feat c)) + ma (ix2 a (feat c))) (flat i f) := rfl

/-- Eight products `w a · x a` added onto 0 in the order a = 0, …, 7. -/
def taps (w x : Fin 8 → EReal) : EReal :=
  0 + w 0 * x 0 + w 1 * x 1 + w 2 * x 2 + w 3 * x 3 + w 4 * x 4 + w 5 * x 5 + w 6 * x 6 + w 7 * x 7

/-- The step tap `a` reads at step `i`: eight back, `a` forward (meant for `i ≥ 8`; a truncated difference otherwise). -/
def lag (i : Fin 4096) (a : Fin 8) : Fin 4096 := ⟨i.val - 8 + a.val, by have := i.isLt; have := a.isLt; omega⟩

theorem lag_val (i : Fin 4096) (a : Fin 8) : (lag i a).val = i.val - 8 + a.val := rfl

/-- Tap `a`'s flat offset `k = 64 − 8a` back from `(i, f)` is step `i − 8 + a` … -/
theorem step_back (i : Fin 4096) (f : Fin 8) (k : Nat) (a : Fin 8) (hk : k + 8 * a.val = 64) (h : 8 ≤ i.val) :
    step (back (flat i f) k) = lag i a :=
  Fin.ext (by rw [step_val, back_val, flat_val, lag_val]; have := f.isLt; omega)
/-- … of the same feature. -/
theorem feat_back (i : Fin 4096) (f : Fin 8) (k : Nat) (a : Fin 8) (hk : k + 8 * a.val = 64) (h : 8 ≤ i.val) :
    feat (back (flat i f) k) = f :=
  Fin.ext (by rw [feat_val, back_val, flat_val]; have := f.isLt; have := a.isLt; omega)
theorem feat_flat (i : Fin 4096) (f : Fin 8) : feat (flat i f) = f :=
  Fin.ext (by rw [feat_val, flat_val]; have := f.isLt; omega)

/-- The filter past the first eight steps, in the array's own coordinates: the eight taps of feature `f` on steps `i − 8 … i − 1`. -/
theorem fir_of_ge (x : (⟨4, ![4, 200, 4096, 8]⟩ : Shape).Idx → EReal) (ar ma : (⟨2, ![8, 8]⟩ : Shape).Idx → EReal)
    (b : Fin 4) (n : Fin 200) (i : Fin 4096) (f : Fin 8) (h : 8 ≤ i.val) :
    fir x ar ma (ix4 b n i f) = taps (fun a => ar (ix2 a f) + ma (ix2 a f)) (fun a => x (ix4 b n (lag i a) f)) := by
  rw [fir_ix4]
  unfold firRow taps
  rw [if_pos (show 64 ≤ (flat i f).val by rw [flat_val]; omega)]
  simp only [feat_flat,
    step_back i f 64 0 rfl h, step_back i f 56 1 rfl h, step_back i f 48 2 rfl h, step_back i f 40 3 rfl h,
    step_back i f 32 4 rfl h, step_back i f 24 5 rfl h, step_back i f 16 6 rfl h, step_back i f 8 7 rfl h,
    feat_back i f 64 0 rfl h, feat_back i f 56 1 rfl h, feat_back i f 48 2 rfl h, feat_back i f 40 3 rfl h,
    feat_back i f 32 4 rfl h, feat_back i f 24 5 rfl h, feat_back i f 16 6 rfl h, feat_back i f 8 7 rfl h]

/-- The filter on the first eight steps: 0. -/
theorem fir_of_lt (x : (⟨4, ![4, 200, 4096, 8]⟩ : Shape).Idx → EReal) (ar ma : (⟨2, ![8, 8]⟩ : Shape).Idx → EReal)
    (b : Fin 4) (n : Fin 200) (i : Fin 4096) (f : Fin 8) (h : i.val < 8) : fir x ar ma (ix4 b n i f) = 0 := by
  rw [fir_ix4]
  unfold firRow
  rw [if_neg (show ¬ 64 ≤ (flat i f).val by rw [flat_val]; have := f.isLt; omega)]

/-- Over the reals, eight products with summed weights added onto 0 are the two sums of eight products, each added onto 0. -/
theorem taps_split (p0 p1 p2 p3 p4 p5 p6 p7 q0 q1 q2 q3 q4 q5 q6 q7 x0 x1 x2 x3 x4 x5 x6 x7 : ℝ) :
    (0 : EReal) + ((p0 : EReal) + (q0 : EReal)) * (x0 : EReal) + ((p1 : EReal) + (q1 : EReal)) * (x1 : EReal)
        + ((p2 : EReal) + (q2 : EReal)) * (x2 : EReal) + ((p3 : EReal) + (q3 : EReal)) * (x3 : EReal)
        + ((p4 : EReal) + (q4 : EReal)) * (x4 : EReal) + ((p5 : EReal) + (q5 : EReal)) * (x5 : EReal)
        + ((p6 : EReal) + (q6 : EReal)) * (x6 : EReal) + ((p7 : EReal) + (q7 : EReal)) * (x7 : EReal)
      = ((0 : EReal) + (p0 : EReal) * (x0 : EReal) + (p1 : EReal) * (x1 : EReal) + (p2 : EReal) * (x2 : EReal)
          + (p3 : EReal) * (x3 : EReal) + (p4 : EReal) * (x4 : EReal) + (p5 : EReal) * (x5 : EReal)
          + (p6 : EReal) * (x6 : EReal) + (p7 : EReal) * (x7 : EReal))
        + ((0 : EReal) + (q0 : EReal) * (x0 : EReal) + (q1 : EReal) * (x1 : EReal) + (q2 : EReal) * (x2 : EReal)
          + (q3 : EReal) * (x3 : EReal) + (q4 : EReal) * (x4 : EReal) + (q5 : EReal) * (x5 : EReal)
          + (q6 : EReal) * (x6 : EReal) + (q7 : EReal) * (x7 : EReal)) := by
  simp only [← EReal.coe_zero, ← EReal.coe_add, ← EReal.coe_mul]
  exact congrArg _ (by ring)

/-- The same on `taps`: real weights `p`, `q` and real samples `x`. -/
theorem taps_add (p q x : Fin 8 → ℝ) :
    taps (fun a => ((p a : ℝ) : EReal) + ((q a : ℝ) : EReal)) (fun a => ((x a : ℝ) : EReal))
      = taps (fun a => ((p a : ℝ) : EReal)) (fun a => ((x a : ℝ) : EReal))
        + taps (fun a => ((q a : ℝ) : EReal)) (fun a => ((x a : ℝ) : EReal)) := by
  unfold taps
  exact taps_split (p 0) (p 1) (p 2) (p 3) (p 4) (p 5) (p 6) (p 7) (q 0) (q 1) (q 2) (q 3) (q 4) (q 5) (q 6) (q 7)
    (x 0) (x 1) (x 2) (x 3) (x 4) (x 5) (x 6) (x 7)

end Cert.Arima

end
-- ==== Proof.BodyReads.lean ====
/-
  The three non-pointwise readings the filter's body is made of, each at one position `(p, c)` of an 80 × 32768 block
  (series `p` of the block, flat position `c`):
    • a row `k` of the 8 × 32768 weight table, cut out, flattened, unflattened and repeated over the 80 series, is the table's
      entry `(k, c)` (`weightRow_apply`);
    • the block with its first `L` positions kept and `K` copies of a filler put in front — the series shifted `K` places to the
      right — is, at a position `c ≥ K`, the block's entry `K` places back (`shifted_apply`);
    • the comparison "flat position ≥ 64", on 32-bit signed words, is the comparison of the numbers, a position being far below
      2³¹ (`mask_apply`).
-/
import Idealize.ShloMosaic.Lib.ValueLayout
import Idealize.ShloMosaic.Lib.Pipeline.Value
import Idealize.ShloMosaic.Lib.Affine
import proofs.«144900_j73083163508835_1_alg».proof.Proof.FirSpec

noncomputable section

namespace Cert.Arima

open Idealize.ShloMosaic Idealize.ShloMosaic.ValueIdx

variable {α : Type}

/-- Row `k` of the weight table, cut out as `[1, 32768]`, cast to `[32768]` and back, and repeated over the 80 series of a
    block, read at series `p`, position `c`: the table at `(k, c)`. -/
theorem weightRow_apply (w : (⟨2, ![8, 32768]⟩ : Shape).Idx → α) (k : Nat) (hk : k < 8)
    (hs : (⟨2, ![8, 32768]⟩ : Shape).Slices ![k, 0] ⟨2, ![1, 32768]⟩)
    (h1 : (⟨2, ![1, 32768]⟩ : Shape).ShapeCasts ⟨1, ![32768]⟩) (h2 : (⟨1, ![32768]⟩ : Shape).ShapeCasts ⟨2, ![1, 32768]⟩)
    (hb : (⟨2, ![1, 32768]⟩ : Shape).Broadcasts ⟨2, ![80, 32768]⟩) (p : Fin 80) (c : Fin 32768) :
    broadcastTo ⟨2, ![80, 32768]⟩ (shapeCast ⟨2, ![1, 32768]⟩ (shapeCast ⟨1, ![32768]⟩
      (extractStridedSlice ⟨2, ![1, 32768]⟩ ![k, 0] w hs) h1) h2) hb (ix2 p c) = w (ix2 ⟨k, hk⟩ c) := by
  rw [broadcastTo_1b_ab_apply, shapeCast_a_1a_apply, shapeCast_1a_a_apply]
  exact slice2_axis0_apply k w hs (0 : Fin 1) c ⟨k, hk⟩ (Nat.add_zero k).symm

/-- The block's first `L` positions with `K` fillers in front (`K + L = 32768`), read at a position `c ≥ K`: the block
    `K` places back. -/
theorem shifted_apply (x : (⟨2, ![80, 32768]⟩ : Shape).Idx → α) (z : α) (K L : Nat) (hKL : K + L = 32768)
    (hsl : (⟨2, ![80, 32768]⟩ : Shape).Slices ![0, 0] ⟨2, ![80, L]⟩)
    (hc : Shape.Concatenates [(⟨2, ![80, K]⟩ : Shape), ⟨2, ![80, L]⟩] ⟨2, ![80, 32768]⟩ 1)
    (p : Fin 80) (c : Fin 32768) (hKc : K ≤ c.val) :
    concatenate ⟨2, ![80, 32768]⟩ 1 [⟨⟨2, ![80, K]⟩, broadcast ⟨2, ![80, K]⟩ z⟩,
        ⟨⟨2, ![80, L]⟩, extractStridedSlice ⟨2, ![80, L]⟩ ![0, 0] x hsl⟩] hc (ix2 p c) = x (ix2 p (back c K)) := by
  have hL : c.val - K < L := by have := c.isLt; omega
  refine (concatenate_pair_apply_right (1 : Fin 2) (broadcast ⟨2, ![80, K]⟩ z) (extractStridedSlice ⟨2, ![80, L]⟩ ![0, 0] x hsl)
    hc (ix2 p c) rfl rfl (ix2 p ⟨c.val - K, hL⟩) (fun b hb => ?_) ?_).trans ?_
  · match b with
    | ⟨0, _⟩ => rfl
    | ⟨1, _⟩ => exact absurd rfl hb
  · show c.val - K + K = c.val
    omega
  · exact slice2_axis1_apply 0 x hsl p ⟨c.val - K, hL⟩ (back c K) (by show c.val - K = 0 + (c.val - K); omega)

/-- "Flat position at least 64" as the kernel computes it — a signed comparison of the position's 32-bit word with the word
    64 — is the comparison of the numbers: the bit is 1 exactly from position 64 on. -/
theorem mask_apply (hi : (⟨2, ![80, 32768]⟩ : Shape).Iotas .tc 32 [1]) (p : Fin 80) (c : Fin 32768) :
    cmpi .sge (iota .tc ⟨2, ![80, 32768]⟩ 32 [1] hi) (broadcast ⟨2, ![80, 32768]⟩ (64#32 : BitVec 32)) (ix2 p c)
      = if 64 ≤ c.val then 1#1 else 0#1 := by
  show IntOp.cmpi .sge (iota .tc ⟨2, ![80, 32768]⟩ 32 [1] hi (ix2 p c)) (64#32 : BitVec 32) = _
  rw [iota_single_apply]
  show IntOp.cmpi .sge (BitVec.ofNat 32 c.val) (64#32 : BitVec 32) = _
  have hc := c.isLt
  have e1 : (BitVec.ofNat 32 c.val).toInt = (c.val : Int) := by
    rw [BitVec.toInt_eq_toNat_of_lt (by rw [BitVec.toNat_ofNat]; omega), BitVec.toNat_ofNat]
    congr 1
    omega
  have e2 : (64#32 : BitVec 32).toInt = 64 := by decide
  by_cases h : 64 ≤ c.val
  · rw [if_pos h]
    exact IntOp.cmpi_sge.mpr (by rw [e1, e2]; exact_mod_cast h)
  · rw [if_neg h]
    exact eq_zero_of_ne_one (fun hh => h (by have := IntOp.cmpi_sge.mp hh; rw [e1, e2] at this; exact_mod_cast this))

end Cert.Arima

end
-- ==== Proof.BodyValue.lean ====
/-
  What the kernel's body stores, read at one position. The body loads a block `x0` of 80 series (each 32768 flat positions) and
  the whole 8 × 32768 weight table `x1`, and stores ONE value of the block's shape: with `s_a` the block shifted `8·(8 − a)`
  places to the right (zeros entering on the left), the sum `0 + x1[0, ·]·s_0 + … + x1[7, ·]·s_7`, masked to 0 at the first 64
  positions. At a position `c ≥ 64` every shift reads inside the block (`8·(8 − a) ≤ 64 ≤ c`), so the stored value at series
  `p`, position `c` is the filter `firRow` of series `p` with the table's rows as weights; before, it is the mask's 0.
-/
import proofs.«144900_j73083163508835_1_alg».proof.Proof.Gen.KernelIdeal.Skeleton
import proofs.«144900_j73083163508835_1_alg».proof.Proof.BodyReads
import Idealize.ShloMosaic.PureOps.Ideal.Laws

noncomputable section

namespace Cert.Arima

open Idealize.ShloMosaic Idealize.ShloMosaic.ValueIdx Cert.KernelIdeal Cert.KernelIdeal.Gen

/-- The loaded block cast to its own shape is the block. -/
theorem pay2_eq (x0 : Vec Ideal S80x32768 .f32) : k0_pay2 (F := Ideal) x0 = x0 := shapeCast_self _ _
/-- The loaded table cast to its own shape is the table. -/
theorem pay3_eq (x1 : Vec Ideal S8x32768 .f32) : k0_pay3 (F := Ideal) x1 = x1 := shapeCast_self _ _

/-- The float constant 0.0 is the number 0. -/
theorem scalar_zero : (Scalar.ofBits (F := Ideal) .f32 0x00000000#32) = (0 : EReal) := Ideal.ofBits_zero_f32

/-- THE STORED VALUE AT A POSITION: the filter of the position's series, the table's rows its weights. -/
theorem pay_apply (x0 : Vec Ideal S80x32768 .f32) (x1 : Vec Ideal S8x32768 .f32) (p : Fin 80) (c : Fin 32768) :
    k0_pay1 (F := Ideal) (k0_pay2 x0) (k0_pay3 x1) (k0_pay4 x0 x1) (k0_pay5 x0) (ix2 p c)
      = firRow (fun c' => x0 (ix2 p c')) (fun a c' => x1 (ix2 a c')) c := by
  unfold firRow
  have hm := mask_apply Gen.iota_S80x32768_d1_w32 p c
  unfold k0_pay1
  show Scalar.select (cmpi CmpIPredicate.sge (iota Kind.tc S80x32768 32 [1] Gen.iota_S80x32768_d1_w32)
    (broadcast S80x32768 64#32) (ix2 p c)) _ _ = _
  by_cases h : 64 ≤ c.val
  · rw [if_pos h] at hm
    rw [if_pos h, hm, select_one]
    simp only [k0_pay4, k0_pay5, pay2_eq, pay3_eq, addf_apply, mulf_apply, broadcast_apply, scalar_zero,
      weightRow_apply x1 0 (by omega), weightRow_apply x1 1 (by omega), weightRow_apply x1 2 (by omega),
      weightRow_apply x1 3 (by omega), weightRow_apply x1 4 (by omega), weightRow_apply x1 5 (by omega),
      weightRow_apply x1 6 (by omega), weightRow_apply x1 7 (by omega),
      shifted_apply x0 _ 64 32704 rfl _ _ p c (by omega), shifted_apply x0 _ 56 32712 rfl _ _ p c (by omega),
      shifted_apply x0 _ 48 32720 rfl _ _ p c (by omega), shifted_apply x0 _ 40 32728 rfl _ _ p c (by omega),
      shifted_apply x0 _ 32 32736 rfl _ _ p c (by omega), shifted_apply x0 _ 24 32744 rfl _ _ p c (by omega),
      shifted_apply x0 _ 16 32752 rfl _ _ p c (by omega), shifted_apply x0 _ 8 32760 rfl _ _ p c (by omega)]
    rfl
  · rw [if_neg h] at hm
    rw [if_neg h, hm, select_zero]
    exact scalar_zero

end Cert.Arima

end
-- ==== Proof.HostWindows.lean ====
/-
  The two arrays the region reads, as the host lines before it leave them, read at an index.
    • The series array (800 × 32768) is the input `x[b, n, i, f]` reshaped: series `200·b + n`, flat position `8·i + f`. Read at
      series `(b, n)` and position `q` it is `x[b, n, q / 8, q % 8]`.
    • The weight array (8 × 32768) is `ar + ma` (8 taps × 8 features) with a unit axis put before the taps and between taps and
      features, the latter repeated 4096 times, and flattened: at tap `a`, position `q` it is `ar[a, q % 8] + ma[a, q % 8]` — the
      feature's weight at every step.
-/
import proofs.«144900_j73083163508835_1_alg».proof.Proof.Gen.KernelIdeal.Frame
import proofs.«144900_j73083163508835_1_alg».proof.Proof.FirSpec
import Idealize.ShloMosaic.Lib.Pipeline.Value
import Idealize.ShloMosaic.Lib.StableHlo.Run

noncomputable section

namespace Cert.Arima

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The program's arguments on core `c`, as arrays of extended reals: the input … -/
abbrev argX (c : Dev nD) : S4x200x4096x8.Idx → EReal := m ((c : Thread nD τ).loc main_arg0)
/-- … and the two weight tables. -/
abbrev argAr (c : Dev nD) : S8x8.Idx → EReal := m ((c : Thread nD τ).loc main_arg1)
abbrev argMa (c : Dev nD) : S8x8.Idx → EReal := m ((c : Thread nD τ).loc main_arg2)

/-- The series array as the region finds it: the input, reshaped. -/
theorem V_series (c : Dev nD) : (V m c main_v4 : S800x32768.Idx → EReal)
    = shapeCast S800x32768 (argX m c) Gen.shapeCasts_S4x200x4096x8_S800x32768 := by
  show StableHlo.after hostOps0 (fun b => m (c, b)) (Proc.devRef .tc main_v4) = _
  after_results
  rfl

/-- The weight array as the region finds it: the two tables added, reshaped, repeated along the steps, flattened. -/
theorem V_weights (c : Dev nD) : (V m c main_v3 : S8x32768.Idx → EReal)
    = shapeCast S8x32768 (broadcastInDim S1x8x4096x8 ![0, 1, 2, 3] Gen.bcast_S1x8x1x8_S1x8x4096x8_0_1_2_3
        (shapeCast S1x8x1x8 (addf (F := Ideal) (φ := .f32) (argAr m c) (argMa m c))
          Gen.shapeCasts_S8x8_S1x8x1x8)) Gen.shapeCasts_S1x8x4096x8_S8x32768 := by
  show StableHlo.after hostOps0 (fun b => m (c, b)) (Proc.devRef .tc main_v3) = _
  after_results
  rfl

/-- The series array at series `(b, n)`, position `q`: the input at step `q / 8`, feature `q % 8` of that series. -/
theorem V_series_apply (c : Dev nD) (b : Fin 4) (n : Fin 200) (q : Fin 32768) :
    (V m c main_v4 : S800x32768.Idx → EReal) (ix2 (series b n) q) = argX m c (ix4 b n (step q) (feat q)) := by
  rw [V_series]
  refine shapeCast_apply _ _ (ix2 (series b n) q) (ix4 b n (step q) (feat q)) ?_
  rw [Shape.rowMajor_val_two, Shape.rowMajor_val_four]
  show ((b.val * 200 + n.val) * 4096 + q.val / 8) * 8 + q.val % 8 = (b.val * 200 + n.val) * 32768 + q.val
  omega

/-- The weight array at tap `a`, position `q`: the summed tables at tap `a`, feature `q % 8`. -/
theorem V_weights_apply (c : Dev nD) (a : Fin 8) (q : Fin 32768) :
    (V m c main_v3 : S8x32768.Idx → EReal) (ix2 a q) = argAr m c (ix2 a (feat q)) + argMa m c (ix2 a (feat q)) := by
  rw [V_weights]
  refine (shapeCast_apply _ Gen.shapeCasts_S1x8x4096x8_S8x32768 (ix2 a q) (ix4 (0 : Fin 1) a (step q) (feat q)) ?_).trans ?_
  · rw [Shape.rowMajor_val_two, Shape.rowMajor_val_four]
    show ((0 * 8 + a.val) * 4096 + q.val / 8) * 8 + q.val % 8 = a.val * 32768 + q.val
    omega
  refine (broadcastInDim_apply _ Gen.bcast_S1x8x1x8_S1x8x4096x8_0_1_2_3 _ (ix4 (0 : Fin 1) a (step q) (feat q))
    (ix4 (0 : Fin 1) a (0 : Fin 1) (feat q)) (fun d => ?_)).trans ?_
  · match d with
    | ⟨0, _⟩ => rfl
    | ⟨1, _⟩ => rfl
    | ⟨2, _⟩ => rfl
    | ⟨3, _⟩ => rfl
  refine (shapeCast_apply _ Gen.shapeCasts_S8x8_S1x8x1x8 (ix4 (0 : Fin 1) a (0 : Fin 1) (feat q)) (ix2 a (feat q)) ?_).trans ?_
  · rw [Shape.rowMajor_val_two, Shape.rowMajor_val_four]
    show a.val * 8 + q.val % 8 = ((0 * 8 + a.val) * 1 + 0) * 8 + q.val % 8
    omega
  rfl

end Cert.Arima

end
-- ==== Proof.KernelArray.lean ====
/-
  From the body's stored block to the kernel program's result. The grid has ten points; point `t` reads series `80t … 80t + 79`
  of the series array (its block of input window 0) and the whole weight array (window 1), and writes the block of the same
  eighty series of the result array back. Each written block is, position by position, the filter of its series
  (`pay_apply`), so it is the block of ONE function of the two arrays, `flatFir`: every series filtered. The ten blocks cover the
  800 series, so after the region the result array IS `flatFir` of the two arrays; the host's closing reshape lays it out as
  4 × 200 × 4096 × 8, and with the two arrays read back to the program's arguments (`V_series_apply`, `V_weights_apply`) the
  program's result is `fir` of its arguments.
-/
import proofs.«144900_j73083163508835_1_alg».proof.Proof.Gen.KernelIdeal.Frame
import proofs.«144900_j73083163508835_1_alg».proof.Proof.BodyValue
import proofs.«144900_j73083163508835_1_alg».proof.Proof.HostWindows
import Idealize.ShloMosaic.Lib.Pipeline.Value
import Idealize.ShloMosaic.Lib.Tactic

noncomputable section

namespace Cert.Arima

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Every series of `X` filtered, the rows of `W` the weights. -/
def flatFir (X : S800x32768.Idx → EReal) (W : S8x32768.Idx → EReal) : S800x32768.Idx → EReal :=
  fun i => firRow (fun q => X (ix2 (i 0) q)) (fun a q => W (ix2 a q)) (i 1)

theorem flatFir_ix2 (X : S800x32768.Idx → EReal) (W : S8x32768.Idx → EReal) (r : Fin 800) (q : Fin 32768) :
    flatFir X W (ix2 r q) = firRow (fun q' => X (ix2 r q')) (fun a q' => W (ix2 a q')) q := rfl

/-- The index maps over the grid: the series window and the result window are at block row `t`, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The series window's block at point `t` is series `80t … 80t + 79` of the series array. -/
theorem iblk0_apply (c : Dev nD) (t : Fin cfg0.N) (p : Fin 80) (q : Fin 32768) (r : Fin 800) (hr : r.val = t.val * 80 + p.val) :
    (iblk m c 0 t : Vec Ideal S80x32768 .f32) (ix2 p q) = (V m c main_v4 : S800x32768.Idx → EReal) (ix2 r q) := by
  obtain ⟨e0, e1, -, -, -, -⟩ := idx_facts t
  unfold iblk
  rw [View.read_apply]
  show V m c main_v4 _ = V m c main_v4 _
  refine congrArg (V m c main_v4) (funext fun a => Fin.ext ?_)
  match a with
  | ⟨0, _⟩ => show win0_0.index t (0 : Fin 2) * 80 + 1 * p.val = r.val; omega
  | ⟨1, _⟩ => show win0_0.index t (1 : Fin 2) * 32768 + 1 * q.val = q.val; omega

/-- The weight window's block at every point is the whole weight array. -/
theorem iblk1_apply (c : Dev nD) (t : Fin cfg0.N) (a : Fin 8) (q : Fin 32768) :
    (iblk m c 1 t : Vec Ideal S8x32768 .f32) (ix2 a q) = (V m c main_v3 : S8x32768.Idx → EReal) (ix2 a q) := by
  obtain ⟨-, -, e2, e3, -, -⟩ := idx_facts t
  unfold iblk
  rw [View.read_apply]
  show V m c main_v3 _ = V m c main_v3 _
  refine congrArg (V m c main_v3) (funext fun d => Fin.ext ?_)
  match d with
  | ⟨0, _⟩ => show win0_1.index t (0 : Fin 2) * 8 + 1 * a.val = a.val; omega
  | ⟨1, _⟩ => show win0_1.index t (1 : Fin 2) * 32768 + 1 * q.val = q.val; omega

/-- WHAT POINT `t` WRITES BACK is block `t` of `flatFir` of the two arrays as the region finds them. -/
theorem flushed_eq (c : Dev nD) (t : Fin cfg0.N) :
    (dats m 0 c).flushed 2 t = ((cfg0.win 2).blk t).view.read (Elt Ideal) (flatFir (V m c main_v4) (V m c main_v3)) := by
  show (cfg0.win 2).cut (grid0.coords t) ((dats m 0 c).after 2 t) = _
  rw [after0_2]
  unfold out0_2
  rw [View.canon_unit_zero hz]
  simp only [View.ld_unit_zero (S := S80x32768) hz, View.ld_unit_zero (S := S8x32768) hz]
  obtain ⟨-, -, -, -, e4, e5⟩ := idx_facts t
  funext j
  obtain ⟨p, q, rfl⟩ : ∃ (p : Fin 80) (q : Fin 32768), j = ix2 p q := ⟨j 0, j 1, eq_ix2 j⟩
  have hN : cfg0.N = 10 := N_0
  have hr : t.val * 80 + p.val < 800 := by have := t.isLt; have := p.isLt; omega
  have hemb : ((cfg0.win 2).blk t).view.emb (ix2 p q) = ix2 (⟨t.val * 80 + p.val, hr⟩ : Fin 800) q := by
    funext a; apply Fin.ext
    match a with
    | ⟨0, _⟩ => show win0_2.index t (0 : Fin 2) * 80 + 1 * p.val = t.val * 80 + p.val; omega
    | ⟨1, _⟩ => show win0_2.index t (1 : Fin 2) * 32768 + 1 * q.val = q.val; omega
  show k0_pay1 (k0_pay2 (iblk m c 0 t)) (k0_pay3 (iblk m c 1 t)) (k0_pay4 (iblk m c 0 t) (iblk m c 1 t)) (k0_pay5 (iblk m c 0 t)) (ix2 p q)
    = flatFir (V m c main_v4) (V m c main_v3) (((cfg0.win 2).blk t).view.emb (ix2 p q))
  rw [hemb, flatFir_ix2]
  refine (pay_apply (iblk m c 0 t) (iblk m c 1 t) p q).trans ?_
  refine congrArg₂ (fun f g => firRow f g q) (funext fun q' => ?_) (funext fun a => funext fun q' => ?_)
  · exact iblk0_apply m c t p q' _ rfl
  · exact iblk1_apply m c t a q'

/-- An index of the result array is in point `t`'s block iff each coordinate is in the block's range on its axis. -/
theorem mem_blk (t : Fin cfg0.N) (i : S800x32768.Idx) :
    i ∈ ((cfg0.win 2).blk t).view.set ↔ ∀ a : Fin 2, win0_2.index t a * S80x32768.size a ≤ (i a).val
      ∧ (i a).val < win0_2.index t a * S80x32768.size a + S80x32768.size a := by
  show i ∈ ((View.whole main_v5).slice (win0_2.rect t)).set ↔ _
  rw [View.set_slice_whole, Rect.mem_set_unit]
  exact Iff.rfl

/-- Series `r` is written by point `r / 80`: the ten blocks cover the result array. -/
theorem cover (i : S800x32768.Idx) : ∃ t : Fin cfg0.N, (cfg0.win 2).flush t = true ∧ i ∈ ((cfg0.win 2).blk t).view.set := by
  have hN : cfg0.N = 10 := N_0
  have h0 : (i 0).val < 800 := (i 0).isLt
  have h1 : (i 1).val < 32768 := (i 1).isLt
  obtain ⟨t, ht⟩ : ∃ t : Fin cfg0.N, t.val = (i 0).val / 80 := ⟨⟨(i 0).val / 80, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 80 ≤ (i 0).val ∧ (i 0).val < win0_2.index t (0 : Fin 2) * 80 + 80
    omega
  | ⟨1, _⟩ =>
    show win0_2.index t (1 : Fin 2) * 32768 ≤ (i 1).val ∧ (i 1).val < win0_2.index t (1 : Fin 2) * 32768 + 32768
    omega

/-- THE RESULT ARRAY after the region: every series filtered. -/
theorem final (c : Dev nD) : (dats m 0 c).arrAt 2 cfg0.N = flatFir (V m c main_v4) (V m c main_v3) :=
  (dats m 0 c).arrAt_eq_of_cover 2 (flatFir (V m c main_v4) (V m c main_v3)) (fun t _ => flushed_eq m c t) cover

/-- What the host's closing reshape leaves in the program's result buffer: the result array laid out 4 × 200 × 4096 × 8. -/
theorem tail_eq (c : Dev nD) :
    Pipeline.afterTail₀ cfgs (dats m) 0 (V0 m) [hostOps1] c main_v6
      = shapeCast S4x200x4096x8 (flatFir (V m c main_v4) (V m c main_v3)) Gen.shapeCasts_S800x32768_S4x200x4096x8 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = flatFir (V m c main_v4) (V m c main_v3) :=
    (Pipeline.withArrays_arr spec0 launch0.win.arr_inj c _ _ 2).trans (final m c)
  rw [hw]
  rfl

/-- THE PROGRAM'S RESULT on core `c`: the filter of its arguments. The reshape reads series `200b + n`, position `8i + f` of the
    result array at `(b, n, i, f)`; that series of the series array is the input's series `(b, n)`, and the weight array's row
    `a` is the summed tables' row `a`, feature by feature. -/
theorem result_eq (c : Dev nD) :
    (Pipeline.afterTail₀ cfgs (dats m) 0 (V0 m) [hostOps1] c main_v6 : S4x200x4096x8.Idx → EReal)
      = fir (argX m c) (argAr m c) (argMa m c) := by
  rw [tail_eq]
  funext j
  obtain ⟨b, n, i, f, rfl⟩ : ∃ (b : Fin 4) (n : Fin 200) (i : Fin 4096) (f : Fin 8), j = ix4 b n i f :=
    ⟨j 0, j 1, j 2, j 3, eq_ix4 j⟩
  refine (shapeCast_apply _ Gen.shapeCasts_S800x32768_S4x200x4096x8 (ix4 b n i f) (ix2 (series b n) (flat i f)) ?_).trans ?_
  · rw [Shape.rowMajor_val_two, Shape.rowMajor_val_four]
    show (b.val * 200 + n.val) * 32768 + (i.val * 8 + f.val) = ((b.val * 200 + n.val) * 4096 + i.val) * 8 + f.val
    omega
  rw [flatFir_ix2, fir_ix4]
  refine congrArg₂ (fun x w => firRow x w (flat i f)) (funext fun q => ?_) (funext fun a => funext fun q => ?_)
  · exact V_series_apply m c b n q
  · exact V_weights_apply m c a q

/-- The kernel program's run, read: every weakly fair execution terminates with the result buffer at the filter of the arguments and
    the arguments unchanged. -/
theorem run : θ_run defs (onTc (τ := τ) (main (F := Ideal))) ⟨m, fun _ => 0, ρ⟩ fun r => ∀ c : Dev nD,
      r.2.mem ((c.tc : Thread nD τ).loc main_v6) = fir (argX m c) (argAr m c) (argMa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Arima

end
-- ==== Proof.RefValue.lean ====
/-
  The reference's result read at an index. The reference computes, for each of the two weight tables `w` (first `ar`, then `ma`),
  the 4088 steps' worth of sums `0 + w[0, f]·x[b, n, j, f] + … + w[7, f]·x[b, n, j + 7, f]` (each tap a row of the table repeated
  over the array, times the input cut from step `a`), pads eight steps of the converted integer 0 in front, and adds the two padded
  arrays. Read at `(b, n, i, f)`: for `i ≥ 8` the pad reads step `j = i − 8` of each sum, so the result is the two eight-tap sums over
  steps `i − 8 … i − 1` added; for `i < 8` it is the pad value added to itself, 0.
  With REAL entries the two sums are one sum with the summed weights (`taps_add`), which is the filter `fir`.
-/
import proofs.«144900_j73083163508835_1_alg».proof.Proof.RefRun
import proofs.«144900_j73083163508835_1_alg».proof.Proof.FirSpec
import Idealize.ShloMosaic.Lib.KernelVsHost
import Idealize.ShloMosaic.Lib.ValueLayout
import Idealize.ShloMosaic.PureOps.Ideal.Laws

noncomputable section

namespace Cert.Arima

open Idealize.ShloMosaic Idealize.ShloMosaic.TcCoe Idealize.SL.Sem Idealize.ShloMosaic.ValueIdx

section Reads
variable {α : Type}

/-- Row `k` of a weight table, cut out, flattened to its 8 features, given three unit axes and repeated over the cut array: at
    `(b, n, j, f)` the table's entry `(k, f)`. -/
theorem refWeight_apply (w : (⟨2, ![8, 8]⟩ : Shape).Idx → α) (k : Nat) (hk : k < 8)
    (hs : (⟨2, ![8, 8]⟩ : Shape).Slices ![k, 0] ⟨2, ![1, 8]⟩) (h1 : (⟨2, ![1, 8]⟩ : Shape).ShapeCasts ⟨1, ![8]⟩)
    (hb1 : (⟨1, ![8]⟩ : Shape).BroadcastsInDim ⟨4, ![1, 1, 1, 8]⟩ ![3])
    (hb2 : (⟨4, ![1, 1, 1, 8]⟩ : Shape).BroadcastsInDim ⟨4, ![4, 200, 4088, 8]⟩ ![0, 1, 2, 3])
    (b : Fin 4) (n : Fin 200) (j : Fin 4088) (f : Fin 8) :
    broadcastInDim ⟨4, ![4, 200, 4088, 8]⟩ ![0, 1, 2, 3] hb2 (broadcastInDim ⟨4, ![1, 1, 1, 8]⟩ ![3] hb1
      (shapeCast ⟨1, ![8]⟩ (extractStridedSlice ⟨2, ![1, 8]⟩ ![k, 0] w hs) h1)) (ix4 b n j f) = w (ix2 ⟨k, hk⟩ f) := by
  refine (broadcastInDim_apply _ hb2 _ (ix4 b n j f) (ix4 (0 : Fin 1) (0 : Fin 1) (0 : Fin 1) f) (fun d => ?_)).trans ?_
  · match d with
    | ⟨0, _⟩ => rfl
    | ⟨1, _⟩ => rfl
    | ⟨2, _⟩ => rfl
    | ⟨3, _⟩ => rfl
  refine (broadcastInDim_apply _ hb1 _ (ix4 (0 : Fin 1) (0 : Fin 1) (0 : Fin 1) f) (ix1 f) (fun d => ?_)).trans ?_
  · match d with
    | ⟨0, _⟩ => rfl
  rw [shapeCast_1a_a_apply]
  exact slice2_axis0_apply k w hs (0 : Fin 1) f ⟨k, hk⟩ (Nat.add_zero k).symm

/-- The array padded with eight steps in front, read at step `i`: the array at step `i − 8` from step 8 on, the padding value before. -/
theorem pad8_apply (A : (⟨4, ![4, 200, 4088, 8]⟩ : Shape).Idx → α) {u : Shape} (z : u.Idx → α)
    (hp : (⟨4, ![4, 200, 4088, 8]⟩ : Shape).Pads ![0, 0, 8, 0] ![0, 0, 0, 0] ![0, 0, 0, 0] ⟨4, ![4, 200, 4096, 8]⟩) (hu : 0 < u.numel)
    (b : Fin 4) (n : Fin 200) (i : Fin 4096) (f : Fin 8) :
    pad ⟨4, ![4, 200, 4096, 8]⟩ ![0, 0, 8, 0] ![0, 0, 0, 0] ![0, 0, 0, 0] A z hp hu (ix4 b n i f)
      = if h : 8 ≤ i.val then A (ix4 b n ⟨i.val - 8, by have := i.isLt; omega⟩ f) else z (Shape.Idx.first hu) := by
  split
  · next h =>
    refine pad_apply_of_inside _ _ _ A z hp hu (ix4 b n i f) (ix4 b n ⟨i.val - 8, by have := i.isLt; omega⟩ f) (fun a => ?_)
    match a with
    | ⟨0, _⟩ => show b.val = 0 + b.val * (0 + 1); omega
    | ⟨1, _⟩ => show n.val = 0 + n.val * (0 + 1); omega
    | ⟨2, _⟩ => show i.val = 8 + (i.val - 8) * (0 + 1); omega
    | ⟨3, _⟩ => show f.val = 0 + f.val * (0 + 1); omega
  · next h =>
    exact pad_apply_of_not_inside _ _ _ A z hp hu (ix4 b n i f) (2 : Fin 4) (fun hh => h hh.1)

end Reads

/-- The zero array the sums start from. -/
theorem refZero_apply (hb : (⟨0, ![]⟩ : Shape).BroadcastsInDim ⟨4, ![4, 200, 4088, 8]⟩ ![])
    (b : Fin 4) (n : Fin 200) (j : Fin 4088) (f : Fin 8) :
    broadcastInDim ⟨4, ![4, 200, 4088, 8]⟩ ![] hb (constant (F := Ideal) ⟨0, ![]⟩ .f32 0x00000000#32) (ix4 b n j f) = (0 : EReal) :=
  (broadcastInDim_apply _ hb _ (ix4 b n j f) ix0 (fun a => a.elim0)).trans Ideal.ofBits_zero_f32

/-- The padding value: the integer 0 converted. -/
theorem padValue (hu : 0 < (⟨0, ![]⟩ : Shape).numel) :
    (sitofp (F := Ideal) .f32 (constantI ⟨0, ![]⟩ 32 0#32) : (⟨0, ![]⟩ : Shape).Idx → EReal) (Shape.Idx.first hu) = 0 := by
  show (((0#32 : BitVec 32).toInt : ℝ) : EReal) = 0
  simp

open Cert.ReferenceIdeal Cert.ReferenceIdeal.Gen

variable (m : (ℓ : Loc nD τ sig) → Buf (Elt Ideal) ℓ)

/-- THE REFERENCE'S RESULT AT AN INDEX past the first eight steps: the two tables' eight-tap sums, added. -/
theorem ref_of_ge (c : Dev nD) (b : Fin 4) (n : Fin 200) (i : Fin 4096) (f : Fin 8) (h : 8 ≤ i.val) :
    (Cert.ReferenceIdeal.ValueP.res_main_v116 m c : S4x200x4096x8.Idx → EReal) (ix4 b n i f)
      = taps (fun a => (m ((c.tc : Thread nD τ).loc main_arg1) : S8x8.Idx → EReal) (ix2 a f))
            (fun a => (m ((c.tc : Thread nD τ).loc main_arg0) : S4x200x4096x8.Idx → EReal) (ix4 b n (lag i a) f))
        + taps (fun a => (m ((c.tc : Thread nD τ).loc main_arg2) : S8x8.Idx → EReal) (ix2 a f))
            (fun a => (m ((c.tc : Thread nD τ).loc main_arg0) : S4x200x4096x8.Idx → EReal) (ix4 b n (lag i a) f)) := by
  have hj : i.val - 8 < 4088 := by have := i.isLt; omega
  unfold Cert.ReferenceIdeal.ValueP.res_main_v116 taps
  rw [addf_apply, pad8_apply, pad8_apply, dif_pos h, dif_pos h]
  simp only [addf_apply, mulf_apply, refZero_apply _ b n ⟨i.val - 8, hj⟩ f,
    refWeight_apply _ 0 (by omega), refWeight_apply _ 1 (by omega), refWeight_apply _ 2 (by omega), refWeight_apply _ 3 (by omega),
    refWeight_apply _ 4 (by omega), refWeight_apply _ 5 (by omega), refWeight_apply _ 6 (by omega), refWeight_apply _ 7 (by omega),
    slice4_axis2_apply 0 _ _ b n ⟨i.val - 8, hj⟩ f (lag i 0) (by rw [lag_val]; show i.val - 8 + 0 = 0 + (i.val - 8); omega),
    slice4_axis2_apply 1 _ _ b n ⟨i.val - 8, hj⟩ f (lag i 1) (by rw [lag_val]; show i.val - 8 + 1 = 1 + (i.val - 8); omega),
    slice4_axis2_apply 2 _ _ b n ⟨i.val - 8, hj⟩ f (lag i 2) (by rw [lag_val]; show i.val - 8 + 2 = 2 + (i.val - 8); omega),
    slice4_axis2_apply 3 _ _ b n ⟨i.val - 8, hj⟩ f (lag i 3) (by rw [lag_val]; show i.val - 8 + 3 = 3 + (i.val - 8); omega),
    slice4_axis2_apply 4 _ _ b n ⟨i.val - 8, hj⟩ f (lag i 4) (by rw [lag_val]; show i.val - 8 + 4 = 4 + (i.val - 8); omega),
    slice4_axis2_apply 5 _ _ b n ⟨i.val - 8, hj⟩ f (lag i 5) (by rw [lag_val]; show i.val - 8 + 5 = 5 + (i.val - 8); omega),
    slice4_axis2_apply 6 _ _ b n ⟨i.val - 8, hj⟩ f (lag i 6) (by rw [lag_val]; show i.val - 8 + 6 = 6 + (i.val - 8); omega),
    slice4_axis2_apply 7 _ _ b n ⟨i.val - 8, hj⟩ f (lag i 7) (by rw [lag_val]; show i.val - 8 + 7 = 7 + (i.val - 8); omega)]
  rfl

/-- THE REFERENCE'S RESULT AT AN INDEX within the first eight steps: the padding value added to itself, 0. -/
theorem ref_of_lt (c : Dev nD) (b : Fin 4) (n : Fin 200) (i : Fin 4096) (f : Fin 8) (h : i.val < 8) :
    (Cert.ReferenceIdeal.ValueP.res_main_v116 m c : S4x200x4096x8.Idx → EReal) (ix4 b n i f) = (0 : EReal) := by
  unfold Cert.ReferenceIdeal.ValueP.res_main_v116
  rw [addf_apply, pad8_apply, pad8_apply, dif_neg (by omega), dif_neg (by omega), padValue, add_zero]

/-- WITH REAL ENTRIES THE REFERENCE COMPUTES THE FILTER. -/
theorem ref_eq_fir (c : Dev nD)
    (hx : ∀ j, ∃ r : ℝ, (m ((c.tc : Thread nD τ).loc main_arg0) : S4x200x4096x8.Idx → EReal) j = (r : EReal))
    (har : ∀ j, ∃ r : ℝ, (m ((c.tc : Thread nD τ).loc main_arg1) : S8x8.Idx → EReal) j = (r : EReal))
    (hma : ∀ j, ∃ r : ℝ, (m ((c.tc : Thread nD τ).loc main_arg2) : S8x8.Idx → EReal) j = (r : EReal)) :
    (Cert.ReferenceIdeal.ValueP.res_main_v116 m c : S4x200x4096x8.Idx → EReal)
      = fir (m ((c.tc : Thread nD τ).loc main_arg0)) (m ((c.tc : Thread nD τ).loc main_arg1)) (m ((c.tc : Thread nD τ).loc main_arg2)) := by
  funext j
  obtain ⟨b, n, i, f, rfl⟩ : ∃ (b : Fin 4) (n : Fin 200) (i : Fin 4096) (f : Fin 8), j = ix4 b n i f :=
    ⟨j 0, j 1, j 2, j 3, eq_ix4 j⟩
  by_cases h : 8 ≤ i.val
  · rw [ref_of_ge m c b n i f h, fir_of_ge _ _ _ b n i f h]
    choose xr hxr using hx
    choose pr hpr using har
    choose qr hqr using hma
    simp only [hxr, hpr, hqr]
    exact (taps_add (fun a => pr (ix2 a f)) (fun a => qr (ix2 a f)) (fun a => xr (ix4 b n (lag i a) f))).symm
  · rw [ref_of_lt m c b n i f (by omega), fir_of_lt _ _ _ b n i f (by omega)]

end Cert.Arima

end
-- ==== Proof.Finite.lean ====
/-
  What the precondition says. `finite_inputs` is the conjunction, over the three arguments, of "every entry's absolute value is below
  +∞" (a comparison per entry, all of them reduced by `and` from the bit 1). On the extended reals `|x| = max x (−x)`, which is
  below +∞ exactly when `x` is neither infinity: every entry of every argument is a real number.
-/
import proofs.«144900_j73083163508835_1_alg».proof.Proof.Gen.Pre_finite_inputs
import Idealize.ShloMosaic.Lib.ReduceAll
import Idealize.ShloMosaic.Lib.ValueIdx
import Idealize.ShloMosaic.PureOps.Ideal.Laws

noncomputable section

namespace Cert.Arima

open Idealize.ShloMosaic Idealize.ShloMosaic.ValueIdx

/-- The scalar shape has one index. -/
instance scalarIdxSubsingleton : Subsingleton (⟨0, ![]⟩ : Shape).Idx := ⟨fun _ _ => funext fun d => d.elim0⟩

/-- The word 0x7F800000 is +∞. -/
theorem inf_word : Ideal.ofBits .f32 0x7F800000#32 = (⊤ : EReal) := by simp [Ideal.ofBits, Ideal.ieee]

/-- An extended real whose absolute value compares below +∞ is a real. -/
theorem real_of_abs_lt (x : EReal) (h : Ideal.cmp .olt (max x (-x)) (Ideal.ofBits .f32 0x7F800000#32) = 1#1) :
    ∃ r : ℝ, x = (r : EReal) := by
  have hlt : max x (-x) < (⊤ : EReal) := by
    rw [inf_word] at h
    unfold Ideal.cmp at h
    by_contra hn
    simp [hn] at h
  induction x using EReal.rec with
  | bot => simp at hlt
  | top => simp at hlt
  | coe r => exact ⟨r, rfl⟩

open Cert.Pre_finite_inputs in
/-- THE PRECONDITION READ: each argument's entries are reals. -/
theorem real_of_pre (x : FVec Ideal S4x200x4096x8 .f32) (ar ma : FVec Ideal S8x8 .f32)
    (h : Cert.Pre_finite_inputs.fn (F := Ideal) x ar ma = fun _ => 1#1) :
    (∀ j, ∃ r : ℝ, (x j : EReal) = (r : EReal)) ∧ (∀ j, ∃ r : ℝ, (ar j : EReal) = (r : EReal))
      ∧ (∀ j, ∃ r : ℝ, (ma j : EReal) = (r : EReal)) := by
  have h0 := congrFun h ix0
  dsimp only [Cert.Pre_finite_inputs.fn] at h0
  have h0' : IntOp.andi (IntOp.andi _ _) _ = 1#1 := h0
  obtain ⟨h12, h3⟩ := IntOp.andi_eq_one.mp h0'
  obtain ⟨h1, h2⟩ := IntOp.andi_eq_one.mp h12
  refine ⟨fun j => ?_, fun j => ?_, fun j => ?_⟩
  · exact real_of_abs_lt _ (Host.reduce_andi_all _ _ _ _ ix0 h1 j)
  · exact real_of_abs_lt _ (Host.reduce_andi_all _ _ _ _ ix0 h2 j)
  · exact real_of_abs_lt _ (Host.reduce_andi_all _ _ _ _ ix0 h3 j)

end Cert.Arima

end
-- ==== Proof.lean ====
/-
  A causal eight-tap filter along the time axis, one filter per feature, in two arrangements.

  Input `x[b, n, i, f]` (4 × 200 series, 4096 steps, 8 features) and two 8 × 8 weight tables `ar[a, f]`, `ma[a, f]`.
    • The kernel program adds the tables, `w = ar + ma`, flattens steps and features of every series into one axis of 32768
      positions (position `8i + f`), and per block of 80 series computes `0 + Σ_a w[a, f] · (series shifted 8·(8 − a) places)`,
      masked to 0 on the first 64 positions; its result is reshaped back.
    • The reference computes, per table, `0 + Σ_a w[a, f] · x[b, n, j + a, f]` on 4088 steps, pads eight zero steps in front,
      and adds the two padded arrays.
  Both are `fir` (Proof/FirSpec.lean): `Σ_a (ar[a, f] + ma[a, f]) · x[b, n, i − 8 + a, f]` for `i ≥ 8`, 0 before. The kernel is
  that term for term (Proof/BodyValue.lean, Proof/KernelArray.lean, Proof/HostWindows.lean); the reference is it by
  distributivity and regrouping of two finite sums (Proof/RefValue.lean), which hold on the extended reals only away from the
  infinities: this is where the precondition — every input entry finite, hence a real (Proof/Finite.lean) — is used.
  The ideal pass rewrote nothing, so `preserves` is `True`; the kernels' frames are the generated class-A frame certificates, and
  the reference's frame is its run with the result dropped.
-/
import proofs.«144900_j73083163508835_1_alg».proof.Defs
import proofs.«144900_j73083163508835_1_alg».proof.Proof.Gen.Kernel
import proofs.«144900_j73083163508835_1_alg».proof.Proof.Gen.Kernel.Skeleton
import proofs.«144900_j73083163508835_1_alg».proof.Proof.Gen.Kernel.Launch
import proofs.«144900_j73083163508835_1_alg».proof.Proof.Gen.Kernel.Points
import proofs.«144900_j73083163508835_1_alg».proof.Proof.Gen.Kernel.Frame
import proofs.«144900_j73083163508835_1_alg».proof.Proof.Gen.KernelIdeal
import proofs.«144900_j73083163508835_1_alg».proof.Proof.Gen.KernelIdeal.Skeleton
import proofs.«144900_j73083163508835_1_alg».proof.Proof.Gen.KernelIdeal.Launch
import proofs.«144900_j73083163508835_1_alg».proof.Proof.Gen.KernelIdeal.Points
import proofs.«144900_j73083163508835_1_alg».proof.Proof.Gen.KernelIdeal.Frame
import proofs.«144900_j73083163508835_1_alg».proof.Proof.Gen.ReferenceIdeal
import proofs.«144900_j73083163508835_1_alg».proof.Proof.Gen.Pre_finite_inputs
import proofs.«144900_j73083163508835_1_alg».proof.Proof.RefRun
import proofs.«144900_j73083163508835_1_alg».proof.Proof.KernelArray
import proofs.«144900_j73083163508835_1_alg».proof.Proof.RefValue
import proofs.«144900_j73083163508835_1_alg».proof.Proof.Finite
import Idealize.ShloMosaic.Adequacy
import Idealize.ShloMosaic.Init

noncomputable section

namespace Cert.Proof

open Idealize.ShloMosaic Idealize.SL.Sem

/-- The kernel program as printed runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, all finite, both programs end with the filter `fir` of the arguments in their result
    buffers: the kernel program whatever the entries (`Cert.Arima.run`), the reference because the entries are reals
    (`Cert.Arima.ref_eq_fir` under `Cert.Arima.real_of_pre`). -/
theorem algebraic : Cert.algebraic_KernelIdeal_ReferenceIdeal := by
  intro m ρ m' ρ' hpre hagree
  refine ⟨fun c => Cert.Arima.fir (Cert.Arima.argX m c) (Cert.Arima.argAr m c) (Cert.Arima.argMa m c), Cert.Arima.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, har, hma⟩ := Cert.Arima.real_of_pre _ _ _ (hpre c)
  obtain ⟨e0, e1, e2⟩ := hagree c
  rw [Cert.Arima.ref_eq_fir m' c (by rw [e0]; exact hx) (by rw [e1]; exact har) (by rw [e2]; exact hma), e0, e1, e2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
